-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S256x128 .f32) (main_arg3 : FVec F S256 .f32) (main_arg4 : FVec F S256x128 .f32) (main_arg5 : FVec F S2x256 .f32) (main_arg6 : FVec F S2 .f32) (main_arg7 : FVec F S2x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S128x256 : Shape := ⟨2, ![128, 256]⟩
abbrev S1x256 : Shape := ⟨2, ![1, 256]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S4000 : Shape := ⟨1, ![4000]⟩
abbrev S600000x256 : Shape := ⟨2, ![600000, 256]⟩
abbrev S256x2 : Shape := ⟨2, ![256, 2]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000x1, .f32⟩
  | .hbm, ⟨14, _⟩ => ⟨S_, .f32⟩
  | .hbm, ⟨15, _⟩ => ⟨S100000x1, .f32⟩
  | .hbm, ⟨16, _⟩ => ⟨S600000x1, .i32⟩
  | .hbm, ⟨17, _⟩ => ⟨S100000x1, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S100000x128, .f32⟩
  | .hbm, ⟨29, _⟩ => ⟨S600000x1, .i32⟩
  | .hbm, ⟨30, _⟩ => ⟨S100000x128, .f32⟩
  | .hbm, ⟨31, _⟩ => ⟨S128x256, .f32⟩
  | .hbm, ⟨32, _⟩ => ⟨S128x256, .f32⟩
  | .hbm, ⟨33, _⟩ => ⟨S1x256, .f32⟩
  | .hbm, ⟨34, _⟩ => ⟨S100000x256, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x256, .f32⟩
  | .hbm, ⟨44, _⟩ => ⟨S_, .f32⟩
  | .hbm, ⟨45, _⟩ => ⟨S100000x256, .f32⟩
  | .hbm, ⟨46, _⟩ => ⟨S600000x1, .i32⟩
  | .hbm, ⟨47, _⟩ => ⟨S100000x256, .f32⟩
  | .hbm, ⟨48, _⟩ => ⟨S256x2, .f32⟩
  | .hbm, ⟨49, _⟩ => ⟨S256x2, .f32⟩
  | .hbm, ⟨50, _⟩ => ⟨S1x2, .f32⟩
  | .hbm, ⟨51, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x1, .f32⟩
  | .local _ .vmem, ⟨14, _⟩ => ⟨S4000x1, .f32⟩
  | .local _ .vmem, ⟨15, _⟩ => ⟨S4000x256, .f32⟩
  | .local _ .vmem, ⟨16, _⟩ => ⟨S4000x256, .f32⟩
  | .local _ .vmem, ⟨17, _⟩ => ⟨S256x2, .f32⟩
  | .local _ .vmem, ⟨18, _⟩ => ⟨S256x2, .f32⟩
  | .local _ .vmem, ⟨19, _⟩ => ⟨S1x2, .f32⟩
  | .local _ .vmem, ⟨20, _⟩ => ⟨S4000x2, .f32⟩
  | .local _ .vmem, ⟨21, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S4000x256_S4000x256_0_0 : ∀ a, (![0, 0] : Fin 2 → Nat) a + S4000x256.size a ≤ S4000x256.size a
  h_S4000x256 : 0 < S4000x256.numel
  bcast_S_S100000x256 : S_.BroadcastsInDim S100000x256 (![] : Fin 0 → Fin S100000x256.rank)
  transposes_S2x256_S256x2_1_0 : S2x256.Transposes [1, 0] S256x2
  shapeCasts_S2_S1x2 : S2.ShapeCasts S1x2
  shapeCasts_S4000x256_S4000x256 : S4000x256.ShapeCasts S4000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x256_S4000x256_1_0_0_1_n_n_wf : DotDims.WF S4000x128 S128x256 S4000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S4000x256_S256x2_S4000x2_1_0_0_1_n_n_wf : DotDims.WF S4000x256 S256x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2.size a ≤ S256x2.size a
  hwx1_4 : ∀ i : grid1.Coords, EltTy.bits .f32 = 32 ∨ (Rect.block (s := S256x2) S256x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x2.size a ≤ S100000x2.size a
  hwx1_6 : ∀ i : grid1.Coords, EltTy.bits .f32 = 32 ∨ (Rect.block (s := S100000x2) S4000x2.size (cc1_transform_6 i) (hinb1_6 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf

abbrev win0_0 : Pipeline.Window sig grid0 :=
  Pipeline.Window.ofSpec (Memref.whole main_v17) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S256x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S100000 : Shape := ⟨1, ![100000]⟩
abbrev S600000x256 : Shape := ⟨2, ![600000, 256]⟩
abbrev S256x2 : Shape := ⟨2, ![256, 2]⟩
abbrev S100000x2 : Shape := ⟨2, ![100000, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000x1, .f32⟩
  | .hbm, ⟨27, _⟩ => ⟨S_, .f32⟩
  | .hbm, ⟨28, _⟩ => ⟨S100000x1, .f32⟩
  | .hbm, ⟨29, _⟩ => ⟨S600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S128x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x256, .f32⟩
  | .hbm, ⟨53, _⟩ => ⟨S100000x256, .f32⟩
  | .hbm, ⟨54, _⟩ => ⟨S_, .f32⟩
  | .hbm, ⟨55, _⟩ => ⟨S100000x256, .f32⟩
  | .hbm, ⟨56, _⟩ => ⟨S100000x256, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x256, .f32⟩
  | .hbm, ⟨66, _⟩ => ⟨S_, .f32⟩
  | .hbm, ⟨67, _⟩ => ⟨S100000x256, .f32⟩
  | .hbm, ⟨68, _⟩ => ⟨S600000x1, .i32⟩
  | .hbm, ⟨69, _⟩ => ⟨S100000x256, .f32⟩
  | .hbm, ⟨70, _⟩ => ⟨S_, .f32⟩
  | .hbm, ⟨71, _⟩ => ⟨S600000x1, .f32⟩
  | .hbm, ⟨72, _⟩ => ⟨S_, .f32⟩
  | .hbm, ⟨73, _⟩ => ⟨S100000x1, .f32⟩
  | .hbm, ⟨74, _⟩ => ⟨S600000x1, .i32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x256, .f32⟩
  | .hbm, ⟨80, _⟩ => ⟨S100000x256, .f32⟩
  | .hbm, ⟨81, _⟩ => ⟨S256x2, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | .hbm, ⟨86, _⟩ => ⟨S256x2, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S100000x2, .f32⟩
  | .hbm, ⟨98, _⟩ => ⟨S100000x2, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000x2, .f32⟩
  | .hbm, ⟨106, _⟩ => ⟨S100000x2, .f32⟩
  | .hbm, ⟨107, _⟩ => ⟨S100000x2, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x1, .f32⟩
  | .hbm, ⟨112, _⟩ => ⟨S100000x2, .f32⟩
  | .hbm, ⟨113, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_call3_cst_0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_cst_1 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_v67 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  transposes_S2x256_S256x2_1_0 : S2x256.Transposes [1, 0] S256x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  bcast_S_S100000 : S_.BroadcastsInDim S100000 (![] : Fin 0 → Fin S100000.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x2_S100000x2_1_0_0_1_n_n_wf : DotDims.WF S100000x256 S256x2 S100000x2 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.KernelRun.lean ====
/-
  The kernel program's run with its result named.

  The program is two kernel regions among stretches of host operations. Its run ends with every buffer that
  outlives a region at the contents the last boundary of the fold through the program gives it; read at the
  result buffer, that is the second region's output array as its write-backs leave it, and read at an argument
  it is the launch contents.
-/
import proofs.«181954_j60352880443979_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the
    arguments as launched. -/
theorem run : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics of one SAGE layer, row by row, on the extended reals.

  A node's row is computed from the SUM `s` of its in-neighbours' feature rows, its in-degree `c`, and its own
  feature row `x`: the mean `s / max c 1` is multiplied by a weight matrix, the node's own row by a second one,
  the bias is added, and the result is divided by its Euclidean length (clamped below by a small constant).
  The first layer then takes the positive part, the second the logarithm of the softmax. The float literals
  (1, the clamp, 0 and -inf) are kept as the words both programs spell them with; none is ever evaluated.
-/
import Idealize.ShloMosaic.PureOps.Ideal
import Idealize.ShloMosaic.Lib.ValueIdx
import Mathlib.Data.Finset.Fold

noncomputable section

namespace Sage

open Idealize.ShloMosaic Idealize.ShloMosaic.ValueIdx

/-- The literal 1.0 (the lower clamp of an in-degree). -/
abbrev one : EReal := Ideal.ofBits .f32 0x3F800000#32
/-- The literal 1e-12 as f32 (the lower clamp of a row's length). -/
abbrev eps : EReal := Ideal.ofBits .f32 0x2B8CBCCC#32
/-- The literal 0.0. -/
abbrev zero : EReal := Ideal.ofBits .f32 0x00000000#32
/-- The literal -inf (where a row's maximum starts). -/
abbrev ninf : EReal := Ideal.ofBits .f32 0xFF800000#32

variable {n a b : ℕ}

/-- A rank-2 array of extended reals. -/
abbrev Arr (n0 n1 : ℕ) := (⟨2, ![n0, n1]⟩ : Shape).Idx → EReal

/-- A row before normalisation: (mean of the neighbours) · wl + x · wr + bias. -/
def pre (s x : Fin a → EReal) (c : EReal) (wl wr : Fin a → Fin b → EReal) (β : Fin b → EReal) (j : Fin b) : EReal :=
  ((∑ k, Ideal.div (s k) (max c one) * wl k j) + ∑ k, x k * wr k j) + β j

/-- A row divided by its Euclidean length, the length clamped below. -/
def normed (v : Fin b → EReal) (j : Fin b) : EReal :=
  Ideal.div (v j) (max (Ideal.sqrt (∑ l, v l * v l)) eps)

/-- The positive part of a row. -/
def relu (v : Fin b → EReal) (j : Fin b) : EReal := max (v j) zero

/-- The logarithm of a row's softmax, shifted by the row's maximum. -/
def logSoftmax (v : Fin b → EReal) (j : Fin b) : EReal :=
  (v j - Finset.univ.fold max ninf v) - Ideal.log (∑ l, Ideal.exp (v l - Finset.univ.fold max ninf v))

/-- Row `r` of the arrays a layer reads, before normalisation. -/
def row (S X : Arr n a) (C : Arr n 1) (WL WR : Arr a b) (B : Arr 1 b) (r : Fin n) : Fin b → EReal :=
  pre (fun k => S (ix2 r k)) (fun k => X (ix2 r k)) (C (ix2 r (0 : Fin 1))) (fun k j => WL (ix2 k j)) (fun k j => WR (ix2 k j))
    (fun j => B (ix2 (0 : Fin 1) j))

/-- A layer that ends in the positive part, as one function of whole arrays. -/
def layerRelu (S X : Arr n a) (C : Arr n 1) (WL WR : Arr a b) (B : Arr 1 b) : Arr n b :=
  fun i => relu (normed (row S X C WL WR B (i 0))) (i 1)

/-- A layer that ends in the log-softmax, as one function of whole arrays. -/
def layerLogSoftmax (S X : Arr n a) (C : Arr n 1) (WL WR : Arr a b) (B : Arr 1 b) : Arr n b :=
  fun i => logSoftmax (normed (row S X C WL WR B (i 0))) (i 1)

/-- The row of a block is the row of the array it was cut from, when the block's entries are the array's. -/
theorem row_congr {m : ℕ} (S X : Arr n a) (C : Arr n 1) (S' X' : Arr m a) (C' : Arr m 1) (WL WR : Arr a b) (B : Arr 1 b)
    (r : Fin n) (p : Fin m) (hS : ∀ k, S' (ix2 p k) = S (ix2 r k)) (hX : ∀ k, X' (ix2 p k) = X (ix2 r k))
    (hC : C' (ix2 p (0 : Fin 1)) = C (ix2 r (0 : Fin 1))) :
    row S' X' C' WL WR B p = row S X C WL WR B r := by
  unfold row
  rw [hC, funext hS, funext hX]

/-- In the reference the bias is added before the node's own product: the same sum. -/
theorem pre_comm (s x : Fin a → EReal) (c : EReal) (wl wr : Fin a → Fin b → EReal) (β : Fin b → EReal) (j : Fin b) :
    ((∑ k, Ideal.div (s k) (max c one) * wl k j) + β j) + ∑ k, x k * wr k j = pre s x c wl wr β j := by
  unfold pre
  exact add_right_comm _ _ _

/-- A maximum that starts from `ninf` is not below `ninf`. -/
theorem max_ninf_fold (v : Fin b → EReal) : max ninf (Finset.univ.fold max ninf v) = Finset.univ.fold max ninf v :=
  max_eq_right ((Finset.le_fold_max _).mpr (Or.inl le_rfl))

end Sage

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KRow0.lean ====
/-
  The first layer's kernel body, read at an index.

  The body's one stored value is a composition of whole-block operations of the six blocks it loads. Read at
  row `p`, column `j` of the block it is the specification's row formula of the blocks' rows: the mean of the
  neighbours' rows (the sum block over the clamped in-degree column), the two matrix products as sums over
  the 128 contracted coordinates, the bias row, the division by the row's clamped Euclidean length, and the
  positive part. Changes of float format are the identity on the extended reals.
-/
import proofs.«181954_j60352880443979_2_alg».proof.Proof.Gen.KernelIdeal.Skeleton
import proofs.«181954_j60352880443979_2_alg».proof.Proof.Spec
import proofs.«181954_j60352880443979_2_alg».proof.Proof.LibKeepdims
import Idealize.ShloMosaic.PureOps.Ideal.Laws

noncomputable section

namespace Cert.KernelIdeal.Rows

open Cert.KernelIdeal Cert.KernelIdeal.Gen Idealize.ShloMosaic Idealize.ShloMosaic.ValueIdx

/-! ## The matrix product [4000,128] × [128,256] at an index -/

abbrev D0 : DotDims S4000x128 S128x256 S4000x256 := dot_S4000x128_S128x256_S4000x256_1_0_0_1_n_n

theorem D0_lhs0 (i : S4000x256.Idx) (q : D0.contr.Idx) : (D0.lhsIdx i q 0).val = (i 0).val := by
  unfold DotDims.lhsIdx
  rw [dif_neg (show ¬(0 : Fin S4000x128.rank) ∈ D0.lhsBatch by decide), dif_pos (show (0 : Fin S4000x128.rank) ∈ D0.lhsNonContracting by decide)]
  rfl
theorem D0_lhs1 (i : S4000x256.Idx) (q : D0.contr.Idx) : (D0.lhsIdx i q 1).val = (q ⟨0, by decide⟩).val :=
  D0.lhsIdx_val_of_single rfl i q
theorem D0_rhs0 (i : S4000x256.Idx) (q : D0.contr.Idx) : (D0.rhsIdx i q 0).val = (q ⟨0, by decide⟩).val :=
  D0.rhsIdx_val_of_single rfl i q
theorem D0_rhs1 (i : S4000x256.Idx) (q : D0.contr.Idx) : (D0.rhsIdx i q 1).val = (i 1).val := by
  unfold DotDims.rhsIdx
  rw [dif_neg (show ¬(1 : Fin S128x256.rank) ∈ D0.rhsBatch by decide), dif_pos (show (1 : Fin S128x256.rank) ∈ D0.rhsNonContracting by decide)]
  rfl

/-- Entry `(p, j)` of the product into a zero accumulator is the sum over `k` of `L (p, k) · R (k, j)`. -/
theorem matmul0_apply {φ₁ φ₂ : FTy} (L : FVec Ideal S4000x128 φ₁) (R : FVec Ideal S128x256 φ₂) (p : Fin 4000) (j : Fin 256) :
    matmul D0 none L R (constant (F := Ideal) S4000x256 .f32 0x00000000#32) (ix2 p j) = ∑ k : Fin 128, L (ix2 p k) * R (ix2 k j) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p j) ((contrEquiv1 D0 128 rfl rfl).symm k) = ix2 p k := funext fun a => Fin.ext (by
    match a with
    | ⟨0, _⟩ => exact D0_lhs0 _ _
    | ⟨1, _⟩ => exact (D0_lhs1 _ _).trans hk)
  have er : D0.rhsIdx (ix2 p j) ((contrEquiv1 D0 128 rfl rfl).symm k) = ix2 k j := funext fun a => Fin.ext (by
    match a with
    | ⟨0, _⟩ => exact (D0_rhs0 _ _).trans hk
    | ⟨1, _⟩ => exact D0_rhs1 _ _)
  rw [el, er]

/-! ## The body as a composition -/

/-- The mean of the neighbours' rows: the sum block over the in-degree column clamped below by one. -/
def agg0 (cnt : FVec Ideal S4000x1 .f32) (s : FVec Ideal S4000x128 .f32) : FVec Ideal S4000x128 .f32 :=
  divf (shapeCast S4000x128 s shapeCasts_S4000x128_S4000x128)
    (broadcastTo S4000x128 (maximumf (shapeCast S4000x1 cnt shapeCasts_S4000x1_S4000x1) (broadcast S4000x1 (Scalar.ofBits (F := Ideal) .f32 0x3F800000#32)))
      broadcasts_S4000x1_S4000x128)

/-- The block before normalisation: the two products and the bias row. -/
def pre0 (cnt : FVec Ideal S4000x1 .f32) (s x : FVec Ideal S4000x128 .f32) (wl wr : FVec Ideal S128x256 .f32) (β : FVec Ideal S1x256 .f32) :
    FVec Ideal S4000x256 .f32 :=
  addf (addf
      (matmul D0 none (truncf .bf16 (agg0 cnt s) bitsLt_bf16_f32) (truncf .bf16 (shapeCast S128x256 wl shapeCasts_S128x256_S128x256) bitsLt_bf16_f32)
        (constant (F := Ideal) S4000x256 .f32 0x00000000#32))
      (matmul D0 none (truncf .bf16 x bitsLt_bf16_f32) (truncf .bf16 (shapeCast S128x256 wr shapeCasts_S128x256_S128x256) bitsLt_bf16_f32)
        (constant (F := Ideal) S4000x256 .f32 0x00000000#32)))
    (broadcastTo S4000x256 (shapeCast S1x256 β shapeCasts_S1x256_S1x256) broadcasts_S1x256_S4000x256)

/-- Each row over its clamped Euclidean length, then the positive part. -/
def fin0 (v : FVec Ideal S4000x256 .f32) : FVec Ideal S4000x256 .f32 :=
  maximumf
    (divf v (broadcastTo S4000x256
      (maximumf (sqrt (shapeCast S4000x1 (multiReduction .add [1] S4000 (mulf v v) 0x00000000#32 reduces_S4000x256_S4000 (.inl rfl) rfl) shapeCasts_S4000_S4000x1))
        (broadcast S4000x1 (Scalar.ofBits (F := Ideal) .f32 0x2B8CBCCC#32)))
      broadcasts_S4000x1_S4000x256))
    (broadcast S4000x256 (Scalar.ofBits (F := Ideal) .f32 0x00000000#32))

/-- The stored value is that composition. -/
theorem pay0_eq (cnt : FVec Ideal S4000x1 .f32) (s x : FVec Ideal S4000x128 .f32) (wl wr : FVec Ideal S128x256 .f32) (β : FVec Ideal S1x256 .f32) :
    k0_pay1 (F := Ideal) cnt s x wl wr β = fin0 (pre0 cnt s x wl wr β) := rfl

/-! ## Read at an index -/

theorem agg0_apply (cnt : FVec Ideal S4000x1 .f32) (s : FVec Ideal S4000x128 .f32) (p : Fin 4000) (k : Fin 128) :
    agg0 cnt s (ix2 p k) = Ideal.div (s (ix2 p k)) (max (cnt (ix2 p (0 : Fin 1))) Sage.one) := by
  unfold agg0
  rw [divf_apply, shapeCast_self, Keepdims.broadcastTo_a1_ab_apply, maximumf_apply, shapeCast_self, broadcast_apply]
  rfl

theorem pre0_apply (cnt : FVec Ideal S4000x1 .f32) (s x : FVec Ideal S4000x128 .f32) (wl wr : FVec Ideal S128x256 .f32) (β : FVec Ideal S1x256 .f32)
    (p : Fin 4000) (j : Fin 256) :
    pre0 cnt s x wl wr β (ix2 p j) = Sage.row (n := 4000) (a := 128) (b := 256) s x cnt wl wr β p j := by
  unfold pre0 Sage.row Sage.pre
  rw [addf_apply, addf_apply, matmul0_apply, matmul0_apply, broadcastTo_1b_ab_apply, shapeCast_self]
  simp only [truncf_apply, agg0_apply, shapeCast_self]

/-- The index a sum over the last axis inserts. -/
theorem lift0 (p : Fin 4000) (l : Fin 256) : reduces_S4000x256_S4000.lift (ix1 p) l = ix2 p l :=
  funext fun a => Fin.ext (by
    match a with
    | ⟨0, _⟩ => rfl
    | ⟨1, _⟩ => rfl)

theorem fin0_apply (v : FVec Ideal S4000x256 .f32) (p : Fin 4000) (j : Fin 256) :
    fin0 v (ix2 p j) = Sage.relu (Sage.normed (fun l => v (ix2 p l))) j := by
  unfold fin0 Sage.relu Sage.normed
  rw [maximumf_apply, divf_apply, Keepdims.broadcastTo_a1_ab_apply, maximumf_apply, broadcast_apply, broadcast_apply]
  have hs : sqrt (shapeCast S4000x1 (multiReduction .add [1] S4000 (mulf v v) 0x00000000#32 reduces_S4000x256_S4000 (.inl rfl) rfl) shapeCasts_S4000_S4000x1) (ix2 p (0 : Fin 1))
      = Ideal.sqrt (∑ l : Fin 256, v (ix2 p l) * v (ix2 p l)) := by
    show Ideal.sqrt (shapeCast S4000x1 (multiReduction .add [1] S4000 (mulf v v) 0x00000000#32 reduces_S4000x256_S4000 (.inl rfl) rfl) shapeCasts_S4000_S4000x1 (ix2 p (0 : Fin 1))) = _
    rw [Keepdims.shapeCast_a_a1_apply]
    refine congrArg Ideal.sqrt ((Ideal.multiReduction_add_single (mulf v v) 0x00000000#32 reduces_S4000x256_S4000 (.inl rfl) rfl (ix1 p)).trans ?_)
    exact Finset.sum_congr rfl fun l _ => (congrArg (mulf v v) (lift0 p l)).trans (mulf_apply v v (ix2 p l))
  rw [hs]
  rfl

/-- The body's stored value at row `p`, column `j` of the block. -/
theorem pay0_apply (cnt : FVec Ideal S4000x1 .f32) (s x : FVec Ideal S4000x128 .f32) (wl wr : FVec Ideal S128x256 .f32) (β : FVec Ideal S1x256 .f32)
    (p : Fin 4000) (j : Fin 256) :
    k0_pay1 (F := Ideal) cnt s x wl wr β (ix2 p j) = Sage.relu (Sage.normed (Sage.row (n := 4000) (a := 128) (b := 256) s x cnt wl wr β p)) j := by
  rw [pay0_eq, fin0_apply]
  exact congrArg (fun f => Sage.relu (Sage.normed f) j) (funext fun l => pre0_apply cnt s x wl wr β p l)

end Cert.KernelIdeal.Rows

end
-- ==== Proof.Region0.lean ====
/-
  The first region's output array.

  The grid has 25 points; point `t` reads rows `4000·t … 4000·t + 3999` of the neighbour-sum array, of the
  in-degree column and of the feature array, the whole of the two weight matrices and of the bias row, and
  writes the same rows of the output. Row `p` of a block is row `4000·t + p` of its array, so what point
  `t` writes back is block `t` of ONE whole-array function of the arrays the region finds — the layer
  ending in the positive part — and the 25 blocks cover the output.
-/
import proofs.«181954_j60352880443979_2_alg».proof.Proof.Gen.KernelIdeal.Frame
import proofs.«181954_j60352880443979_2_alg».proof.Proof.KRow0
import Idealize.ShloMosaic.Lib.Pipeline.Value

set_option maxRecDepth 16384

noncomputable section

namespace Cert.KernelIdeal.Region0

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def out (c : Dev nD) : Sage.Arr 100000 256 :=
  Sage.layerRelu (n := 100000) (a := 128) (b := 256) (V c main_v17) (V c main_arg0) (V c main_v7) (V c main_v18) (V c main_v19) (V c main_v20)

/-- One entry of the body's stored value is the layer's entry at the row the block's row is. -/
theorem point (S X : Sage.Arr 100000 128) (C : Sage.Arr 100000 1) (WL WR : Sage.Arr 128 256) (B : Sage.Arr 1 256)
    (cnt : FVec Ideal S4000x1 .f32) (s x : FVec Ideal S4000x128 .f32) (wl wr : FVec Ideal S128x256 .f32) (β : FVec Ideal S1x256 .f32)
    (p : Fin 4000) (j : Fin 256) (r : Fin 100000)
    (hs : ∀ k, s (ix2 p k) = S (ix2 r k)) (hx : ∀ k, x (ix2 p k) = X (ix2 r k)) (hc : cnt (ix2 p (0 : Fin 1)) = C (ix2 r (0 : Fin 1)))
    (hwl : wl = WL) (hwr : wr = WR) (hb : β = B) :
    k0_pay1 (F := Ideal) cnt s x wl wr β (ix2 p j) = Sage.layerRelu (n := 100000) (a := 128) (b := 256) S X C WL WR B (ix2 r j) := by
  subst hwl hwr hb
  rw [pay0_apply]
  show _ = Sage.relu (Sage.normed (Sage.row S X C wl wr β r)) j
  rw [Sage.row_congr S X C s x cnt wl wr β r p hs hx hc]

/-- The printed index maps over the grid: the three row-blocked inputs and the output move with the point, the
    weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks, read where the output's rows say -/

/-- Row `p` of point `t`'s block of the neighbour sums is row `4000·t + p` of the array. -/
theorem read_s (c : Dev nD) (t : Fin cfg0.N) (p : Fin 4000) (k : Fin 128) (r : Fin 100000) (hr : r.val = t.val * 4000 + p.val) :
    iblk0 V c 0 t (ix2 p k) = V c main_v17 (ix2 r k) := by
  show V c main_v17 (((cfg0.win 0).blk t).view.emb (ix2 p k)) = _
  refine congrArg (V c main_v17) (funext fun a => Fin.ext ?_)
  obtain ⟨e00, e01, -⟩ := idx_facts t
  match a with
  | ⟨0, _⟩ => show win0_0.index t (0 : Fin 2) * 4000 + 1 * p.val = r.val; omega
  | ⟨1, _⟩ => show win0_0.index t (1 : Fin 2) * 128 + 1 * k.val = k.val; omega

/-- The same for the in-degree column. -/
theorem read_cnt (c : Dev nD) (t : Fin cfg0.N) (p : Fin 4000) (r : Fin 100000) (hr : r.val = t.val * 4000 + p.val) :
    iblk0 V c 1 t (ix2 p (0 : Fin 1)) = V c main_v7 (ix2 r (0 : Fin 1)) := by
  show V c main_v7 (((cfg0.win 1).blk t).view.emb (ix2 p (0 : Fin 1))) = _
  refine congrArg (V c main_v7) (funext fun a => Fin.ext ?_)
  obtain ⟨-, -, e10, e11, -⟩ := idx_facts t
  match a with
  | ⟨0, _⟩ => show win0_1.index t (0 : Fin 2) * 4000 + 1 * p.val = r.val; omega
  | ⟨1, _⟩ => show win0_1.index t (1 : Fin 2) * 1 + 1 * 0 = 0; omega

/-- The same for the node's own features. -/
theorem read_x (c : Dev nD) (t : Fin cfg0.N) (p : Fin 4000) (k : Fin 128) (r : Fin 100000) (hr : r.val = t.val * 4000 + p.val) :
    iblk0 V c 2 t (ix2 p k) = V c main_arg0 (ix2 r k) := by
  show V c main_arg0 (((cfg0.win 2).blk t).view.emb (ix2 p k)) = _
  refine congrArg (V c main_arg0) (funext fun a => Fin.ext ?_)
  obtain ⟨-, -, -, -, e20, e21, -⟩ := idx_facts t
  match a with
  | ⟨0, _⟩ => show win0_2.index t (0 : Fin 2) * 4000 + 1 * p.val = r.val; omega
  | ⟨1, _⟩ => show win0_2.index t (1 : Fin 2) * 128 + 1 * k.val = k.val; omega

/-- The weights and the bias are read whole at every point. -/
theorem read_wl (c : Dev nD) (t : Fin cfg0.N) : (iblk0 V c 3 t : FVec Ideal S128x256 .f32) = (V c main_v18 : Sage.Arr 128 256) := by
  funext z
  show V c main_v18 (((cfg0.win 3).blk t).view.emb z) = _
  refine congrArg (V c main_v18) (funext fun a => Fin.ext ?_)
  obtain ⟨-, -, -, -, -, -, e30, e31, -⟩ := idx_facts t
  match a with
  | ⟨0, _⟩ => show win0_3.index t (0 : Fin 2) * 128 + 1 * (z 0).val = (z 0).val; omega
  | ⟨1, _⟩ => show win0_3.index t (1 : Fin 2) * 256 + 1 * (z 1).val = (z 1).val; omega

theorem read_wr (c : Dev nD) (t : Fin cfg0.N) : (iblk0 V c 4 t : FVec Ideal S128x256 .f32) = (V c main_v19 : Sage.Arr 128 256) := by
  funext z
  show V c main_v19 (((cfg0.win 4).blk t).view.emb z) = _
  refine congrArg (V c main_v19) (funext fun a => Fin.ext ?_)
  obtain ⟨-, -, -, -, -, -, -, -, e40, e41, -⟩ := idx_facts t
  match a with
  | ⟨0, _⟩ => show win0_4.index t (0 : Fin 2) * 128 + 1 * (z 0).val = (z 0).val; omega
  | ⟨1, _⟩ => show win0_4.index t (1 : Fin 2) * 256 + 1 * (z 1).val = (z 1).val; omega

theorem read_b (c : Dev nD) (t : Fin cfg0.N) : (iblk0 V c 5 t : FVec Ideal S1x256 .f32) = (V c main_v20 : Sage.Arr 1 256) := by
  funext z
  show V c main_v20 (((cfg0.win 5).blk t).view.emb z) = _
  refine congrArg (V c main_v20) (funext fun a => Fin.ext ?_)
  obtain ⟨-, -, -, -, -, -, -, -, -, -, e50, e51, -⟩ := idx_facts t
  match a with
  | ⟨0, _⟩ => show win0_5.index t (0 : Fin 2) * 1 + 1 * (z 0).val = (z 0).val; omega
  | ⟨1, _⟩ => show win0_5.index t (1 : Fin 2) * 256 + 1 * (z 1).val = (z 1).val; omega

set_option maxHeartbeats 1000000 in
/-- What point `t` writes back is block `t` of `out`. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S4000x1) hz, View.ld_unit_zero (S := S4000x128) hz, View.ld_unit_zero (S := S128x256) hz,
    View.ld_unit_zero (S := S1x256) hz]
  have hN : t.val < 25 := lt_of_lt_of_eq t.isLt N_0
  obtain ⟨-, -, -, -, -, -, -, -, -, -, -, -, e60, e61⟩ := idx_facts t
  funext y
  have hy0 : (y 0).val < 4000 := (y 0).isLt
  have hy1 : (y 1).val < 256 := (y 1).isLt
  have hyy : y = ix2 (⟨(y 0).val, hy0⟩ : Fin 4000) (⟨(y 1).val, hy1⟩ : Fin 256) := by
    funext a; apply Fin.ext
    match a with
    | ⟨0, _⟩ => rfl
    | ⟨1, _⟩ => rfl
  have hemb : ((cfg0.win 6).blk t).view.emb y
      = ix2 (⟨t.val * 4000 + (y 0).val, by omega⟩ : Fin 100000) (⟨(y 1).val, hy1⟩ : Fin 256) := by
    funext a; apply Fin.ext
    match a with
    | ⟨0, _⟩ => show win0_6.index t (0 : Fin 2) * 4000 + 1 * (y 0).val = t.val * 4000 + (y 0).val; omega
    | ⟨1, _⟩ => show win0_6.index t (1 : Fin 2) * 256 + 1 * (y 1).val = (y 1).val; omega
  show k0_pay1 (F := Ideal) (iblk0 V c 1 t) (iblk0 V c 0 t) (iblk0 V c 2 t) (iblk0 V c 3 t) (iblk0 V c 4 t) (iblk0 V c 5 t) y
    = out V c (((cfg0.win 6).blk t).view.emb y)
  rw [hemb]
  refine (congrArg (k0_pay1 (F := Ideal) (iblk0 V c 1 t) (iblk0 V c 0 t) (iblk0 V c 2 t) (iblk0 V c 3 t) (iblk0 V c 4 t) (iblk0 V c 5 t)) hyy).trans ?_
  exact point (V c main_v17) (V c main_arg0) (V c main_v7) (V c main_v18) (V c main_v19) (V c main_v20)
    (iblk0 V c 1 t) (iblk0 V c 0 t) (iblk0 V c 2 t) (iblk0 V c 3 t) (iblk0 V c 4 t) (iblk0 V c 5 t)
    ⟨(y 0).val, hy0⟩ ⟨(y 1).val, hy1⟩ ⟨t.val * 4000 + (y 0).val, by omega⟩
    (fun k => read_s V c t _ k _ rfl) (fun k => read_x V c t _ k _ rfl) (read_cnt V c t _ _ rfl)
    (read_wl V c t) (read_wr V c t) (read_b V c t)

/-! ## The blocks cover the output -/

/-- An index is in point `t`'s block iff each coordinate is in the block's range on its axis. -/
theorem mem_blk (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v21).slice (win0_6.rect t)).set ↔ _
  rw [View.set_slice_whole, Rect.mem_set_unit]
  exact Iff.rfl

/-- Row `r` is in the block of point `r / 4000`. -/
theorem cover (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 25 := N_0
  let t : Fin cfg0.N := ⟨(i 0).val / 4000, by rw [hN]; omega⟩
  obtain ⟨-, -, -, -, -, -, -, -, -, -, -, -, e60, e61⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- The region's output array, after the run of its 25 points, is the layer of the arrays it found. -/
theorem final (c : Dev nD) : (dat0 V c).arrAt 6 cfg0.N = out V c :=
  (dat0 V c).arrAt_eq_of_cover 6 (out V c) (fun t _ => flushed_eq V c t) cover

end Cert.KernelIdeal.Region0

end
-- ==== Proof.KRow1.lean ====
/-
  The second layer's kernel body, read at an index.

  The body computes each row over its clamped Euclidean length as in the first layer (the contraction now over
  256 coordinates, two output columns), then the row's maximum `M` (a maximum that starts from -inf), the sum of
  the exponentials of the row shifted by `M`, and stores `(v − M) − log (that sum)`: the logarithm of the
  row's softmax.
-/
import proofs.«181954_j60352880443979_2_alg».proof.Proof.Gen.KernelIdeal.Skeleton
import proofs.«181954_j60352880443979_2_alg».proof.Proof.Spec
import proofs.«181954_j60352880443979_2_alg».proof.Proof.LibKeepdims
import Idealize.ShloMosaic.PureOps.Ideal.Laws

noncomputable section

namespace Cert.KernelIdeal.Rows

open Cert.KernelIdeal Cert.KernelIdeal.Gen Idealize.ShloMosaic Idealize.ShloMosaic.ValueIdx

/-! ## The matrix product [4000,256] × [256,2] at an index -/

abbrev D1 : DotDims S4000x256 S256x2 S4000x2 := dot_S4000x256_S256x2_S4000x2_1_0_0_1_n_n

theorem D1_lhs0 (i : S4000x2.Idx) (q : D1.contr.Idx) : (D1.lhsIdx i q 0).val = (i 0).val := by
  unfold DotDims.lhsIdx
  rw [dif_neg (show ¬(0 : Fin S4000x256.rank) ∈ D1.lhsBatch by decide), dif_pos (show (0 : Fin S4000x256.rank) ∈ D1.lhsNonContracting by decide)]
  rfl
theorem D1_lhs1 (i : S4000x2.Idx) (q : D1.contr.Idx) : (D1.lhsIdx i q 1).val = (q ⟨0, by decide⟩).val :=
  D1.lhsIdx_val_of_single rfl i q
theorem D1_rhs0 (i : S4000x2.Idx) (q : D1.contr.Idx) : (D1.rhsIdx i q 0).val = (q ⟨0, by decide⟩).val :=
  D1.rhsIdx_val_of_single rfl i q
theorem D1_rhs1 (i : S4000x2.Idx) (q : D1.contr.Idx) : (D1.rhsIdx i q 1).val = (i 1).val := by
  unfold DotDims.rhsIdx
  rw [dif_neg (show ¬(1 : Fin S256x2.rank) ∈ D1.rhsBatch by decide), dif_pos (show (1 : Fin S256x2.rank) ∈ D1.rhsNonContracting by decide)]
  rfl

/-- Entry `(p, j)` of the product into a zero accumulator is the sum over `k` of `L (p, k) · R (k, j)`. -/
theorem matmul1_apply {φ₁ φ₂ : FTy} (L : FVec Ideal S4000x256 φ₁) (R : FVec Ideal S256x2 φ₂) (p : Fin 4000) (j : Fin 2) :
    matmul D1 none L R (constant (F := Ideal) S4000x2 .f32 0x00000000#32) (ix2 p j) = ∑ k : Fin 256, L (ix2 p k) * R (ix2 k j) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p j) ((contrEquiv1 D1 256 rfl rfl).symm k) = ix2 p k := funext fun a => Fin.ext (by
    match a with
    | ⟨0, _⟩ => exact D1_lhs0 _ _
    | ⟨1, _⟩ => exact (D1_lhs1 _ _).trans hk)
  have er : D1.rhsIdx (ix2 p j) ((contrEquiv1 D1 256 rfl rfl).symm k) = ix2 k j := funext fun a => Fin.ext (by
    match a with
    | ⟨0, _⟩ => exact (D1_rhs0 _ _).trans hk
    | ⟨1, _⟩ => exact D1_rhs1 _ _)
  rw [el, er]

/-! ## The body as a composition -/

/-- The mean of the neighbours' rows: the sum block over the in-degree column clamped below by one. -/
def agg1 (cnt : FVec Ideal S4000x1 .f32) (s : FVec Ideal S4000x256 .f32) : FVec Ideal S4000x256 .f32 :=
  divf (shapeCast S4000x256 s shapeCasts_S4000x256_S4000x256)
    (broadcastTo S4000x256 (maximumf (shapeCast S4000x1 cnt shapeCasts_S4000x1_S4000x1) (broadcast S4000x1 (Scalar.ofBits (F := Ideal) .f32 0x3F800000#32)))
      broadcasts_S4000x1_S4000x256)

/-- The block before normalisation: the two products and the bias row. -/
def pre1 (cnt : FVec Ideal S4000x1 .f32) (s x : FVec Ideal S4000x256 .f32) (wl wr : FVec Ideal S256x2 .f32) (β : FVec Ideal S1x2 .f32) :
    FVec Ideal S4000x2 .f32 :=
  addf (addf
      (matmul D1 none (truncf .bf16 (agg1 cnt s) bitsLt_bf16_f32) (truncf .bf16 (shapeCast S256x2 wl shapeCasts_S256x2_S256x2) bitsLt_bf16_f32)
        (constant (F := Ideal) S4000x2 .f32 0x00000000#32))
      (matmul D1 none (truncf .bf16 (shapeCast S4000x256 x shapeCasts_S4000x256_S4000x256) bitsLt_bf16_f32)
        (truncf .bf16 (shapeCast S256x2 wr shapeCasts_S256x2_S256x2) bitsLt_bf16_f32)
        (constant (F := Ideal) S4000x2 .f32 0x00000000#32)))
    (broadcastTo S4000x2 (shapeCast S1x2 β shapeCasts_S1x2_S1x2) broadcasts_S1x2_S4000x2)

/-- Each row over its clamped Euclidean length. -/
def unit1 (v : FVec Ideal S4000x2 .f32) : FVec Ideal S4000x2 .f32 :=
  divf v (broadcastTo S4000x2
    (maximumf (sqrt (shapeCast S4000x1 (multiReduction .add [1] S4000 (mulf v v) 0x00000000#32 reduces_S4000x2_S4000 (.inl rfl) rfl) shapeCasts_S4000_S4000x1))
      (broadcast S4000x1 (Scalar.ofBits (F := Ideal) .f32 0x2B8CBCCC#32)))
    broadcasts_S4000x1_S4000x2)

theorem pay2_eq (cnt : FVec Ideal S4000x1 .f32) (s x : FVec Ideal S4000x256 .f32) (wl wr : FVec Ideal S256x2 .f32) (β : FVec Ideal S1x2 .f32) :
    k1_pay2 (F := Ideal) cnt s x wl wr β = unit1 (pre1 cnt s x wl wr β) := rfl

/-! ## Read at an index -/

theorem agg1_apply (cnt : FVec Ideal S4000x1 .f32) (s : FVec Ideal S4000x256 .f32) (p : Fin 4000) (k : Fin 256) :
    agg1 cnt s (ix2 p k) = Ideal.div (s (ix2 p k)) (max (cnt (ix2 p (0 : Fin 1))) Sage.one) := by
  unfold agg1
  rw [divf_apply, shapeCast_self, Keepdims.broadcastTo_a1_ab_apply, maximumf_apply, shapeCast_self, broadcast_apply]
  rfl

theorem pre1_apply (cnt : FVec Ideal S4000x1 .f32) (s x : FVec Ideal S4000x256 .f32) (wl wr : FVec Ideal S256x2 .f32) (β : FVec Ideal S1x2 .f32)
    (p : Fin 4000) (j : Fin 2) :
    pre1 cnt s x wl wr β (ix2 p j) = Sage.row (n := 4000) (a := 256) (b := 2) s x cnt wl wr β p j := by
  unfold pre1 Sage.row Sage.pre
  rw [addf_apply, addf_apply, matmul1_apply, matmul1_apply, broadcastTo_1b_ab_apply, shapeCast_self]
  simp only [truncf_apply, agg1_apply, shapeCast_self]

/-- The index a reduction over the last axis inserts. -/
theorem lift1 (p : Fin 4000) (l : Fin 2) : reduces_S4000x2_S4000.lift (ix1 p) l = ix2 p l :=
  funext fun a => Fin.ext (by
    match a with
    | ⟨0, _⟩ => rfl
    | ⟨1, _⟩ => rfl)

/-- A sum over the last axis, kept as a column, read at row `p`. -/
theorem rowSum1 (w : FVec Ideal S4000x2 .f32) (p : Fin 4000) :
    shapeCast S4000x1 (multiReduction .add [1] S4000 w 0x00000000#32 reduces_S4000x2_S4000 (.inl rfl) rfl) shapeCasts_S4000_S4000x1 (ix2 p (0 : Fin 1))
      = ∑ l : Fin 2, w (ix2 p l) := by
  rw [Keepdims.shapeCast_a_a1_apply]
  refine (Ideal.multiReduction_add_single w 0x00000000#32 reduces_S4000x2_S4000 (.inl rfl) rfl (ix1 p)).trans ?_
  exact Finset.sum_congr rfl fun l _ => congrArg w (lift1 p l)

/-- A maximum over the last axis, kept as a column, read at row `p`. -/
theorem rowMax1 (w : FVec Ideal S4000x2 .f32) (p : Fin 4000) :
    shapeCast S4000x1 (multiReduction .maximumf [1] S4000 w 0xFF800000#32 reduces_S4000x2_S4000 (.inl rfl) rfl) shapeCasts_S4000_S4000x1 (ix2 p (0 : Fin 1))
      = Finset.univ.fold max Sage.ninf (fun l : Fin 2 => w (ix2 p l)) := by
  rw [Keepdims.shapeCast_a_a1_apply]
  refine (Ideal.multiReduction_maximumf_single w 0xFF800000#32 reduces_S4000x2_S4000 (.inl rfl) rfl (ix1 p)).trans ?_
  exact congrArg (Finset.univ.fold max Sage.ninf) (funext fun l => congrArg w (lift1 p l))

theorem unit1_apply (v : FVec Ideal S4000x2 .f32) (p : Fin 4000) (j : Fin 2) :
    unit1 v (ix2 p j) = Sage.normed (fun l => v (ix2 p l)) j := by
  unfold unit1 Sage.normed
  rw [divf_apply, Keepdims.broadcastTo_a1_ab_apply, maximumf_apply, broadcast_apply]
  have hs : sqrt (shapeCast S4000x1 (multiReduction .add [1] S4000 (mulf v v) 0x00000000#32 reduces_S4000x2_S4000 (.inl rfl) rfl) shapeCasts_S4000_S4000x1) (ix2 p (0 : Fin 1))
      = Ideal.sqrt (∑ l : Fin 2, v (ix2 p l) * v (ix2 p l)) := by
    show Ideal.sqrt (shapeCast S4000x1 (multiReduction .add [1] S4000 (mulf v v) 0x00000000#32 reduces_S4000x2_S4000 (.inl rfl) rfl) shapeCasts_S4000_S4000x1 (ix2 p (0 : Fin 1))) = _
    rw [rowSum1]
    exact congrArg Ideal.sqrt (Finset.sum_congr rfl fun l _ => mulf_apply v v (ix2 p l))
  rw [hs]
  rfl

/-- The normalised row. -/
theorem pay2_apply (cnt : FVec Ideal S4000x1 .f32) (s x : FVec Ideal S4000x256 .f32) (wl wr : FVec Ideal S256x2 .f32) (β : FVec Ideal S1x2 .f32)
    (p : Fin 4000) (j : Fin 2) :
    k1_pay2 (F := Ideal) cnt s x wl wr β (ix2 p j) = Sage.normed (Sage.row (n := 4000) (a := 256) (b := 2) s x cnt wl wr β p) j := by
  rw [pay2_eq, unit1_apply]
  exact congrArg (fun f => Sage.normed f j) (funext fun l => pre1_apply cnt s x wl wr β p l)

/-- The row's maximum. -/
theorem pay3_apply (cnt : FVec Ideal S4000x1 .f32) (s x : FVec Ideal S4000x256 .f32) (wl wr : FVec Ideal S256x2 .f32) (β : FVec Ideal S1x2 .f32)
    (p : Fin 4000) :
    k1_pay3 (F := Ideal) cnt s x wl wr β (ix2 p (0 : Fin 1))
      = Finset.univ.fold max Sage.ninf (Sage.normed (Sage.row (n := 4000) (a := 256) (b := 2) s x cnt wl wr β p)) := by
  unfold k1_pay3
  refine (rowMax1 (k1_pay2 (F := Ideal) cnt s x wl wr β) p).trans ?_
  exact congrArg (Finset.univ.fold max Sage.ninf) (funext fun l => pay2_apply cnt s x wl wr β p l)

/-- The sum of the exponentials of the shifted row. -/
theorem pay4_apply (cnt : FVec Ideal S4000x1 .f32) (s x : FVec Ideal S4000x256 .f32) (wl wr : FVec Ideal S256x2 .f32) (β : FVec Ideal S1x2 .f32)
    (p : Fin 4000) :
    k1_pay4 (F := Ideal) cnt s x wl wr β (ix2 p (0 : Fin 1))
      = ∑ l : Fin 2, Ideal.exp (Sage.normed (Sage.row (n := 4000) (a := 256) (b := 2) s x cnt wl wr β p) l
          - Finset.univ.fold max Sage.ninf (Sage.normed (Sage.row (n := 4000) (a := 256) (b := 2) s x cnt wl wr β p))) := by
  unfold k1_pay4
  refine (rowSum1 _ p).trans ?_
  refine Finset.sum_congr rfl fun l _ => ?_
  show Ideal.exp (k1_pay2 (F := Ideal) cnt s x wl wr β (ix2 p l)
      - broadcastTo S4000x2 (k1_pay3 (F := Ideal) cnt s x wl wr β) broadcasts_S4000x1_S4000x2 (ix2 p l)) = _
  rw [Keepdims.broadcastTo_a1_ab_apply, pay2_apply, pay3_apply]

/-- The stored value: the logarithm of the row's softmax. -/
theorem body1_apply (cnt : FVec Ideal S4000x1 .f32) (s x : FVec Ideal S4000x256 .f32) (wl wr : FVec Ideal S256x2 .f32) (β : FVec Ideal S1x2 .f32)
    (p : Fin 4000) (j : Fin 2) :
    k1_pay1 (F := Ideal) (k1_pay2 cnt s x wl wr β) (k1_pay3 cnt s x wl wr β) (k1_pay4 cnt s x wl wr β) (ix2 p j)
      = Sage.logSoftmax (Sage.normed (Sage.row (n := 4000) (a := 256) (b := 2) s x cnt wl wr β p)) j := by
  unfold k1_pay1 Sage.logSoftmax
  show (k1_pay2 (F := Ideal) cnt s x wl wr β (ix2 p j)
        - broadcastTo S4000x2 (k1_pay3 (F := Ideal) cnt s x wl wr β) broadcasts_S4000x1_S4000x2 (ix2 p j))
      - broadcastTo S4000x2 (log (k1_pay4 (F := Ideal) cnt s x wl wr β)) broadcasts_S4000x1_S4000x2 (ix2 p j) = _
  rw [Keepdims.broadcastTo_a1_ab_apply, Keepdims.broadcastTo_a1_ab_apply, pay2_apply, pay3_apply]
  show _ - Ideal.log (k1_pay4 (F := Ideal) cnt s x wl wr β (ix2 p (0 : Fin 1))) = _
  rw [pay4_apply]

end Cert.KernelIdeal.Rows

end
-- ==== Proof.Region1.lean ====
/-
  The second region's output array.

  The grid has 25 points; point `t` reads rows `4000·t … 4000·t + 3999` of the second neighbour-sum array, of the
  in-degree column and of the first layer's output, the whole of the two weight matrices and of the bias row, and
  writes the same rows of the result. Row `p` of a block is row `4000·t + p` of its array, so what point `t`
  writes back is block `t` of ONE whole-array function of the arrays the region finds — the layer ending in the
  log-softmax — and the 25 blocks cover the result.
-/
import proofs.«181954_j60352880443979_2_alg».proof.Proof.Gen.KernelIdeal.Frame
import proofs.«181954_j60352880443979_2_alg».proof.Proof.KRow1
import Idealize.ShloMosaic.Lib.Pipeline.Value

set_option maxRecDepth 16384

noncomputable section

namespace Cert.KernelIdeal.Region1

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def out (c : Dev nD) : Sage.Arr 100000 2 :=
  Sage.layerLogSoftmax (n := 100000) (a := 256) (b := 2) (V c main_v31) (V c main_v21) (V c main_v7) (V c main_v32) (V c main_v33) (V c main_v34)

/-- One entry of the body's stored value is the layer's entry at the row the block's row is. -/
theorem point (S X : Sage.Arr 100000 256) (C : Sage.Arr 100000 1) (WL WR : Sage.Arr 256 2) (B : Sage.Arr 1 2)
    (cnt : FVec Ideal S4000x1 .f32) (s x : FVec Ideal S4000x256 .f32) (wl wr : FVec Ideal S256x2 .f32) (β : FVec Ideal S1x2 .f32)
    (p : Fin 4000) (j : Fin 2) (r : Fin 100000)
    (hs : ∀ k, s (ix2 p k) = S (ix2 r k)) (hx : ∀ k, x (ix2 p k) = X (ix2 r k)) (hc : cnt (ix2 p (0 : Fin 1)) = C (ix2 r (0 : Fin 1)))
    (hwl : wl = WL) (hwr : wr = WR) (hb : β = B) :
    k1_pay1 (F := Ideal) (k1_pay2 cnt s x wl wr β) (k1_pay3 cnt s x wl wr β) (k1_pay4 cnt s x wl wr β) (ix2 p j) = Sage.layerLogSoftmax (n := 100000) (a := 256) (b := 2) S X C WL WR B (ix2 r j) := by
  subst hwl hwr hb
  rw [body1_apply]
  show _ = Sage.logSoftmax (Sage.normed (Sage.row S X C wl wr β r)) j
  rw [Sage.row_congr S X C s x cnt wl wr β r p hs hx hc]

/-- The printed index maps over the grid: the three row-blocked inputs and the output move with the point, the
    weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The blocks, read where the output's rows say -/

/-- Row `p` of point `t`'s block of the neighbour sums is row `4000·t + p` of the array. -/
theorem read_s (c : Dev nD) (t : Fin cfg1.N) (p : Fin 4000) (k : Fin 256) (r : Fin 100000) (hr : r.val = t.val * 4000 + p.val) :
    iblk1 V c 0 t (ix2 p k) = V c main_v31 (ix2 r k) := by
  show V c main_v31 (((cfg1.win 0).blk t).view.emb (ix2 p k)) = _
  refine congrArg (V c main_v31) (funext fun a => Fin.ext ?_)
  obtain ⟨e00, e01, -⟩ := idx_facts t
  match a with
  | ⟨0, _⟩ => show win1_0.index t (0 : Fin 2) * 4000 + 1 * p.val = r.val; omega
  | ⟨1, _⟩ => show win1_0.index t (1 : Fin 2) * 256 + 1 * k.val = k.val; omega

/-- The same for the in-degree column. -/
theorem read_cnt (c : Dev nD) (t : Fin cfg1.N) (p : Fin 4000) (r : Fin 100000) (hr : r.val = t.val * 4000 + p.val) :
    iblk1 V c 1 t (ix2 p (0 : Fin 1)) = V c main_v7 (ix2 r (0 : Fin 1)) := by
  show V c main_v7 (((cfg1.win 1).blk t).view.emb (ix2 p (0 : Fin 1))) = _
  refine congrArg (V c main_v7) (funext fun a => Fin.ext ?_)
  obtain ⟨-, -, e10, e11, -⟩ := idx_facts t
  match a with
  | ⟨0, _⟩ => show win1_1.index t (0 : Fin 2) * 4000 + 1 * p.val = r.val; omega
  | ⟨1, _⟩ => show win1_1.index t (1 : Fin 2) * 1 + 1 * 0 = 0; omega

/-- The same for the node's own features. -/
theorem read_x (c : Dev nD) (t : Fin cfg1.N) (p : Fin 4000) (k : Fin 256) (r : Fin 100000) (hr : r.val = t.val * 4000 + p.val) :
    iblk1 V c 2 t (ix2 p k) = V c main_v21 (ix2 r k) := by
  show V c main_v21 (((cfg1.win 2).blk t).view.emb (ix2 p k)) = _
  refine congrArg (V c main_v21) (funext fun a => Fin.ext ?_)
  obtain ⟨-, -, -, -, e20, e21, -⟩ := idx_facts t
  match a with
  | ⟨0, _⟩ => show win1_2.index t (0 : Fin 2) * 4000 + 1 * p.val = r.val; omega
  | ⟨1, _⟩ => show win1_2.index t (1 : Fin 2) * 256 + 1 * k.val = k.val; omega

/-- The weights and the bias are read whole at every point. -/
theorem read_wl (c : Dev nD) (t : Fin cfg1.N) : (iblk1 V c 3 t : FVec Ideal S256x2 .f32) = (V c main_v32 : Sage.Arr 256 2) := by
  funext z
  show V c main_v32 (((cfg1.win 3).blk t).view.emb z) = _
  refine congrArg (V c main_v32) (funext fun a => Fin.ext ?_)
  obtain ⟨-, -, -, -, -, -, e30, e31, -⟩ := idx_facts t
  match a with
  | ⟨0, _⟩ => show win1_3.index t (0 : Fin 2) * 256 + 1 * (z 0).val = (z 0).val; omega
  | ⟨1, _⟩ => show win1_3.index t (1 : Fin 2) * 2 + 1 * (z 1).val = (z 1).val; omega

theorem read_wr (c : Dev nD) (t : Fin cfg1.N) : (iblk1 V c 4 t : FVec Ideal S256x2 .f32) = (V c main_v33 : Sage.Arr 256 2) := by
  funext z
  show V c main_v33 (((cfg1.win 4).blk t).view.emb z) = _
  refine congrArg (V c main_v33) (funext fun a => Fin.ext ?_)
  obtain ⟨-, -, -, -, -, -, -, -, e40, e41, -⟩ := idx_facts t
  match a with
  | ⟨0, _⟩ => show win1_4.index t (0 : Fin 2) * 256 + 1 * (z 0).val = (z 0).val; omega
  | ⟨1, _⟩ => show win1_4.index t (1 : Fin 2) * 2 + 1 * (z 1).val = (z 1).val; omega

theorem read_b (c : Dev nD) (t : Fin cfg1.N) : (iblk1 V c 5 t : FVec Ideal S1x2 .f32) = (V c main_v34 : Sage.Arr 1 2) := by
  funext z
  show V c main_v34 (((cfg1.win 5).blk t).view.emb z) = _
  refine congrArg (V c main_v34) (funext fun a => Fin.ext ?_)
  obtain ⟨-, -, -, -, -, -, -, -, -, -, e50, e51, -⟩ := idx_facts t
  match a with
  | ⟨0, _⟩ => show win1_5.index t (0 : Fin 2) * 1 + 1 * (z 0).val = (z 0).val; omega
  | ⟨1, _⟩ => show win1_5.index t (1 : Fin 2) * 2 + 1 * (z 1).val = (z 1).val; omega

set_option maxHeartbeats 1000000 in
/-- What point `t` writes back is block `t` of `out`. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S4000x1) hz, View.ld_unit_zero (S := S4000x256) hz, View.ld_unit_zero (S := S256x2) hz,
    View.ld_unit_zero (S := S1x2) hz]
  have hN : t.val < 25 := lt_of_lt_of_eq t.isLt N_1
  obtain ⟨-, -, -, -, -, -, -, -, -, -, -, -, e60, e61⟩ := idx_facts t
  funext y
  have hy0 : (y 0).val < 4000 := (y 0).isLt
  have hy1 : (y 1).val < 2 := (y 1).isLt
  have hyy : y = ix2 (⟨(y 0).val, hy0⟩ : Fin 4000) (⟨(y 1).val, hy1⟩ : Fin 2) := by
    funext a; apply Fin.ext
    match a with
    | ⟨0, _⟩ => rfl
    | ⟨1, _⟩ => rfl
  have hemb : ((cfg1.win 6).blk t).view.emb y
      = ix2 (⟨t.val * 4000 + (y 0).val, by omega⟩ : Fin 100000) (⟨(y 1).val, hy1⟩ : Fin 2) := by
    funext a; apply Fin.ext
    match a with
    | ⟨0, _⟩ => show win1_6.index t (0 : Fin 2) * 4000 + 1 * (y 0).val = t.val * 4000 + (y 0).val; omega
    | ⟨1, _⟩ => show win1_6.index t (1 : Fin 2) * 2 + 1 * (y 1).val = (y 1).val; omega
  show k1_pay1 (F := Ideal) (k1_pay2 (iblk1 V c 1 t) (iblk1 V c 0 t) (iblk1 V c 2 t) (iblk1 V c 3 t) (iblk1 V c 4 t) (iblk1 V c 5 t)) (k1_pay3 (iblk1 V c 1 t) (iblk1 V c 0 t) (iblk1 V c 2 t) (iblk1 V c 3 t) (iblk1 V c 4 t) (iblk1 V c 5 t)) (k1_pay4 (iblk1 V c 1 t) (iblk1 V c 0 t) (iblk1 V c 2 t) (iblk1 V c 3 t) (iblk1 V c 4 t) (iblk1 V c 5 t)) y
    = out V c (((cfg1.win 6).blk t).view.emb y)
  rw [hemb]
  refine (congrArg (k1_pay1 (F := Ideal) (k1_pay2 (iblk1 V c 1 t) (iblk1 V c 0 t) (iblk1 V c 2 t) (iblk1 V c 3 t) (iblk1 V c 4 t) (iblk1 V c 5 t)) (k1_pay3 (iblk1 V c 1 t) (iblk1 V c 0 t) (iblk1 V c 2 t) (iblk1 V c 3 t) (iblk1 V c 4 t) (iblk1 V c 5 t)) (k1_pay4 (iblk1 V c 1 t) (iblk1 V c 0 t) (iblk1 V c 2 t) (iblk1 V c 3 t) (iblk1 V c 4 t) (iblk1 V c 5 t))) hyy).trans ?_
  exact point (V c main_v31) (V c main_v21) (V c main_v7) (V c main_v32) (V c main_v33) (V c main_v34)
    (iblk1 V c 1 t) (iblk1 V c 0 t) (iblk1 V c 2 t) (iblk1 V c 3 t) (iblk1 V c 4 t) (iblk1 V c 5 t)
    ⟨(y 0).val, hy0⟩ ⟨(y 1).val, hy1⟩ ⟨t.val * 4000 + (y 0).val, by omega⟩
    (fun k => read_s V c t _ k _ rfl) (fun k => read_x V c t _ k _ rfl) (read_cnt V c t _ _ rfl)
    (read_wl V c t) (read_wr V c t) (read_b V c t)

/-! ## The blocks cover the output -/

/-- An index is in point `t`'s block iff each coordinate is in the block's range on its axis. -/
theorem mem_blk (t : Fin cfg1.N) (i : S100000x2.Idx) :
    i ∈ ((cfg1.win 6).blk t).view.set ↔ ∀ a : Fin 2, win1_6.index t a * S4000x2.size a ≤ (i a).val ∧ (i a).val < win1_6.index t a * S4000x2.size a + S4000x2.size a := by
  show i ∈ ((View.whole main_v35).slice (win1_6.rect t)).set ↔ _
  rw [View.set_slice_whole, Rect.mem_set_unit]
  exact Iff.rfl

/-- Row `r` is in the block of point `r / 4000`. -/
theorem cover (i : S100000x2.Idx) : ∃ t : Fin cfg1.N, (cfg1.win 6).flush t = true ∧ i ∈ ((cfg1.win 6).blk t).view.set := by
  have hi0 : (i 0).val < 100000 := (i 0).isLt
  have hi1 : (i 1).val < 2 := (i 1).isLt
  have hN : cfg1.N = 25 := N_1
  let t : Fin cfg1.N := ⟨(i 0).val / 4000, by rw [hN]; omega⟩
  obtain ⟨-, -, -, -, -, -, -, -, -, -, -, -, e60, e61⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 2 ≤ (i 1).val ∧ (i 1).val < win1_6.index t (1 : Fin 2) * 2 + 2; omega

/-- The region's output array, after the run of its 25 points, is the layer of the arrays it found. -/
theorem final (c : Dev nD) : (dat1 V c).arrAt 6 cfg1.N = out V c :=
  (dat1 V c).arrAt_eq_of_cover 6 (out V c) (fun t _ => flushed_eq V c t) cover

end Cert.KernelIdeal.Region1

end
-- ==== Proof.RefRows.lean ====
/-
  The reference, read row by row.

  Each stage of the reference is a whole-array operation; read at an index its element depends on one row of its
  operands. Composing the stages of one layer at row `r`, column `j` gives the specification's row formula of the
  layer's input arrays: the neighbour sums over the clamped in-degree, the two products as sums over the contracted
  coordinate, the bias (added before the second product in the reference: the same sum), the division by the clamped
  Euclidean length, and the positive part or the logarithm of the softmax. The reference's maximum of a row starts
  from -inf and is then compared with -inf once more, which changes nothing.
-/
import proofs.«181954_j60352880443979_2_alg».proof.Proof.RefReadP
import proofs.«181954_j60352880443979_2_alg».proof.Proof.Spec
import Idealize.ShloMosaic.PureOps.Ideal.Laws

set_option maxRecDepth 65536

noncomputable section

namespace Cert.ReferenceIdeal.Rows

open Cert.ReferenceIdeal Cert.ReferenceIdeal.Gen Cert.ReferenceIdeal.ReadP Idealize.ShloMosaic Idealize.ShloMosaic.ValueIdx

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S100000x128, .f32⟩ : BufTy).Contents (Elt Ideal)) (x1 : (⟨S2x600000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S2x256, .f32⟩ : BufTy).Contents (Elt Ideal))
  (x6 : (⟨S2, .f32⟩ : BufTy).Contents (Elt Ideal)) (x7 : (⟨S2x256, .f32⟩ : BufTy).Contents (Elt Ideal))

/-! ## The first layer -/

/-- The arrays the first layer reads: neighbour sums, features, in-degrees, the two transposed weights, the bias row. -/
abbrev row1 (r : Fin 100000) : Fin 256 → EReal :=
  Sage.row (n := 100000) (a := 128) (b := 256) (val_main_v13 (F := Ideal) x0 x1) x0 (val_main_v17 (F := Ideal) x1) (val_main_v22 (F := Ideal) x2) (val_main_v27 (F := Ideal) x4) (val_main_v24 (F := Ideal) x3) r

theorem pre1_apply (r : Fin 100000) (j : Fin 256) : val_main_v29 (F := Ideal) x0 x1 x2 x3 x4 (ix2 r j) = row1 x0 x1 x2 x3 x4 r j := by
  have hl : ∀ k : Fin 128, lidx_main_v23 (ix2 r j) k = ix2 r k := fun k => by idx2
  have hr : ∀ k : Fin 128, ridx_main_v23 (ix2 r j) k = ix2 k j := fun k => by idx2
  have hl' : ∀ k : Fin 128, lidx_main_v28 (ix2 r j) k = ix2 r k := fun k => by idx2
  have hr' : ∀ k : Fin 128, ridx_main_v28 (ix2 r j) k = ix2 k j := fun k => by idx2
  have h20 : ∀ k : Fin 128, idx_main_v20 (ix2 r k) = ix2 r (0 : Fin 1) := fun k => by idx2
  have h25 : idx_main_v25 (ix2 r j) = ix2 (0 : Fin 1) j := by idx2
  rw [val_main_v29_apply, val_main_v26_apply, val_main_v23_apply, val_main_v28_apply, val_main_v25_apply]
  simp only [hl, hr, hl', hr', h25, val_main_v21_apply, val_main_v20_apply, h20, val_main_v19_apply, val_main_v18_apply, val_main_cst_3_apply,
    Ideal.addf_def, Ideal.hostDivf_def, Ideal.maximumf_def, Ideal.ofBits_def]
  unfold row1 Sage.row Sage.pre
  exact add_right_comm _ _ _

/-- The sum of a row's squares. -/
theorem sq1_apply (r : Fin 100000) : val_main_call0_v1 (F := Ideal) x0 x1 x2 x3 x4 (ix1 r) = ∑ l : Fin 256, row1 x0 x1 x2 x3 x4 r l * row1 x0 x1 x2 x3 x4 r l := by
  have hc1 : ∀ k : Fin 256, idx_main_call0_v1 (ix1 r) k = ix2 r k := fun k => by idx2
  rw [val_main_call0_v1_apply, val_main_call0_cst_apply]
  show Ideal.ofBits .f32 0x00000000#32 + _ = _
  rw [Ideal.ofBits_zero_f32, zero_add]
  refine Finset.sum_congr rfl fun k _ => ?_
  rw [hc1 k, val_main_call0_v0_apply, pre1_apply]
  exact Ideal.mulf_def _ _

/-- The first layer's output at row `r`, column `j`. -/
theorem h_apply (r : Fin 100000) (j : Fin 256) :
    val_main_v35 (F := Ideal) x0 x1 x2 x3 x4 (ix2 r j) = Sage.relu (Sage.normed (row1 x0 x1 x2 x3 x4 r)) j := by
  have h33 : idx_main_v33 (ix2 r j) = ix2 r (0 : Fin 1) := by idx2
  have hc2 : idx_main_call0_v2 (ix2 r (0 : Fin 1)) = ix1 r := by idx1
  rw [val_main_v35_apply, val_main_v34_apply, val_main_v33_apply, h33, val_main_v32_apply, val_main_v30_apply, val_main_call0_v2_apply, hc2,
    sq1_apply, pre1_apply, val_main_v31_apply, val_main_cst_4_apply, val_main_call1_v0_apply, val_main_call1_cst_apply]
  simp only [Sage.relu, Sage.normed, Ideal.maximumf_def, Ideal.hostDivf_def, Ideal.hostUnary_sqrt_def, Ideal.ofBits_def]

/-- The first layer's output is the layer ending in the positive part, of the arrays the reference computes for it. -/
theorem layer1_eq :
    (val_main_v35 (F := Ideal) x0 x1 x2 x3 x4 : Sage.Arr 100000 256)
      = Sage.layerRelu (n := 100000) (a := 128) (b := 256) (val_main_v13 (F := Ideal) x0 x1) x0 (val_main_v17 (F := Ideal) x1) (val_main_v22 (F := Ideal) x2) (val_main_v27 (F := Ideal) x4) (val_main_v24 (F := Ideal) x3) := by
  funext i
  obtain ⟨r, j, rfl⟩ : ∃ (r : Fin 100000) (j : Fin 256), i = ix2 r j := ⟨i 0, i 1, eq_ix2 i⟩
  exact h_apply x0 x1 x2 x3 x4 r j

/-! ## The second layer -/

/-- The arrays the second layer reads: the second neighbour sums, the first layer's output, the in-degrees again, the two
    transposed weights, the bias row. -/
abbrev row2 (r : Fin 100000) : Fin 2 → EReal :=
  Sage.row (n := 100000) (a := 256) (b := 2) (val_main_v45 (F := Ideal) x0 x1 x2 x3 x4) (val_main_v35 (F := Ideal) x0 x1 x2 x3 x4) (val_main_v49 (F := Ideal) x1) (val_main_v54 (F := Ideal) x5) (val_main_v59 (F := Ideal) x7) (val_main_v56 (F := Ideal) x6) r

theorem pre2_apply (r : Fin 100000) (j : Fin 2) : val_main_v61 (F := Ideal) x0 x1 x2 x3 x4 x5 x6 x7 (ix2 r j) = row2 x0 x1 x2 x3 x4 x5 x6 x7 r j := by
  have hl : ∀ k : Fin 256, lidx_main_v55 (ix2 r j) k = ix2 r k := fun k => by idx2
  have hr : ∀ k : Fin 256, ridx_main_v55 (ix2 r j) k = ix2 k j := fun k => by idx2
  have hl' : ∀ k : Fin 256, lidx_main_v60 (ix2 r j) k = ix2 r k := fun k => by idx2
  have hr' : ∀ k : Fin 256, ridx_main_v60 (ix2 r j) k = ix2 k j := fun k => by idx2
  have h52 : ∀ k : Fin 256, idx_main_v52 (ix2 r k) = ix2 r (0 : Fin 1) := fun k => by idx2
  have h57 : idx_main_v57 (ix2 r j) = ix2 (0 : Fin 1) j := by idx2
  rw [val_main_v61_apply, val_main_v58_apply, val_main_v55_apply, val_main_v60_apply, val_main_v57_apply]
  simp only [hl, hr, hl', hr', h57, val_main_v53_apply, val_main_v52_apply, h52, val_main_v51_apply, val_main_v50_apply, val_main_cst_10_apply,
    Ideal.addf_def, Ideal.hostDivf_def, Ideal.maximumf_def, Ideal.ofBits_def]
  unfold row2 Sage.row Sage.pre
  exact add_right_comm _ _ _

theorem sq2_apply (r : Fin 100000) : val_main_call2_v1 (F := Ideal) x0 x1 x2 x3 x4 x5 x6 x7 (ix1 r) = ∑ l : Fin 2, row2 x0 x1 x2 x3 x4 x5 x6 x7 r l * row2 x0 x1 x2 x3 x4 x5 x6 x7 r l := by
  have hc1 : ∀ k : Fin 2, idx_main_call2_v1 (ix1 r) k = ix2 r k := fun k => by idx2
  rw [val_main_call2_v1_apply, val_main_call2_cst_apply]
  show Ideal.ofBits .f32 0x00000000#32 + _ = _
  rw [Ideal.ofBits_zero_f32, zero_add]
  refine Finset.sum_congr rfl fun k _ => ?_
  rw [hc1 k, val_main_call2_v0_apply, pre2_apply]
  exact Ideal.mulf_def _ _

/-- The normalised row. -/
theorem unit2_apply (r : Fin 100000) (j : Fin 2) :
    val_main_v66 (F := Ideal) x0 x1 x2 x3 x4 x5 x6 x7 (ix2 r j) = Sage.normed (row2 x0 x1 x2 x3 x4 x5 x6 x7 r) j := by
  have h65 : idx_main_v65 (ix2 r j) = ix2 r (0 : Fin 1) := by idx2
  have hc2 : idx_main_call2_v2 (ix2 r (0 : Fin 1)) = ix1 r := by idx1
  rw [val_main_v66_apply, val_main_v65_apply, h65, val_main_v64_apply, val_main_v62_apply, val_main_call2_v2_apply, hc2,
    sq2_apply, pre2_apply, val_main_v63_apply, val_main_cst_11_apply]
  simp only [Sage.normed, Ideal.maximumf_def, Ideal.hostDivf_def, Ideal.hostUnary_sqrt_def, Ideal.ofBits_def]

/-- The row's maximum, as the reference takes it. -/
theorem max2_apply (r : Fin 100000) :
    val_main_call3_v2 (F := Ideal) x0 x1 x2 x3 x4 x5 x6 x7 (ix1 r) = Finset.univ.fold max Sage.ninf (Sage.normed (row2 x0 x1 x2 x3 x4 x5 x6 x7 r)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hfold : val_main_call3_v0 (F := Ideal) x0 x1 x2 x3 x4 x5 x6 x7 (ix1 r) = Finset.univ.fold max Sage.ninf (Sage.normed (row2 x0 x1 x2 x3 x4 x5 x6 x7 r)) := by
    unfold val_main_call3_v0
    refine (Host.reduce_eq_fold_single (FloatOps.maximumf (F := Ideal) (φ := .f32)) (val_main_v66 (F := Ideal) x0 x1 x2 x3 x4 x5 x6 x7) (val_main_call3_cst (F := Ideal))
      reducesTo_S100000x2_S100000_d1 (by decide) h_S_ (ix1 r)).trans ?_
    refine congrArg (Finset.univ.fold max Sage.ninf) (funext fun l => ?_)
    show val_main_v66 (F := Ideal) x0 x1 x2 x3 x4 x5 x6 x7 ((by decide : S100000x2.Reduces [1] S100000).lift (ix1 r) l) = _
    rw [show (by decide : S100000x2.Reduces [1] S100000).lift (ix1 r) l = ix2 r l from by idx2]
    exact unit2_apply x0 x1 x2 x3 x4 x5 x6 x7 r l
  rw [val_main_call3_v2_apply, hfold, val_main_call3_v1_apply, val_main_call3_cst_0_apply, Ideal.maximumf_def, Ideal.ofBits_def]
  exact Sage.max_ninf_fold _

/-- The shifted row. -/
theorem shift2_apply (r : Fin 100000) (j : Fin 2) :
    val_main_call3_v5 (F := Ideal) x0 x1 x2 x3 x4 x5 x6 x7 (ix2 r j)
      = Sage.normed (row2 x0 x1 x2 x3 x4 x5 x6 x7 r) j - Finset.univ.fold max Sage.ninf (Sage.normed (row2 x0 x1 x2 x3 x4 x5 x6 x7 r)) := by
  have h4 : idx_main_call3_v4 (ix2 r j) = ix2 r (0 : Fin 1) := by idx2
  have h3 : idx_main_call3_v3 (ix2 r (0 : Fin 1)) = ix1 r := by idx1
  rw [val_main_call3_v5_apply, val_main_call3_v4_apply, h4, val_main_call3_v3_apply, h3, max2_apply, unit2_apply]
  exact Ideal.subf_def _ _

/-- The sum of the exponentials of the shifted row. -/
theorem lse2_apply (r : Fin 100000) :
    val_main_call3_v7 (F := Ideal) x0 x1 x2 x3 x4 x5 x6 x7 (ix1 r)
      = ∑ l : Fin 2, Ideal.exp (Sage.normed (row2 x0 x1 x2 x3 x4 x5 x6 x7 r) l - Finset.univ.fold max Sage.ninf (Sage.normed (row2 x0 x1 x2 x3 x4 x5 x6 x7 r))) := by
  have hc1 : ∀ k : Fin 2, idx_main_call3_v7 (ix1 r) k = ix2 r k := fun k => by idx2
  rw [val_main_call3_v7_apply, val_main_call3_cst_1_apply]
  show Ideal.ofBits .f32 0x00000000#32 + _ = _
  rw [Ideal.ofBits_zero_f32, zero_add]
  refine Finset.sum_congr rfl fun k _ => ?_
  rw [hc1 k, val_main_call3_v6_apply, shift2_apply]
  exact Ideal.hostUnary_exp_def _

/-- The reference's result at row `r`, column `j`. -/
theorem out_apply (r : Fin 100000) (j : Fin 2) :
    val_main_v67 (F := Ideal) x0 x1 x2 x3 x4 x5 x6 x7 (ix2 r j) = Sage.logSoftmax (Sage.normed (row2 x0 x1 x2 x3 x4 x5 x6 x7 r)) j := by
  have h10 : idx_main_call3_v10 (ix2 r j) = ix2 r (0 : Fin 1) := by idx2
  have h8 : idx_main_call3_v8 (ix2 r (0 : Fin 1)) = ix1 r := by idx1
  rw [val_main_v67_apply, val_main_call3_v10_apply, h10, val_main_call3_v9_apply, val_main_call3_v8_apply, h8, lse2_apply, shift2_apply]
  simp only [Sage.logSoftmax, Ideal.subf_def, Ideal.hostUnary_log_def]

/-- The reference's result is the layer ending in the log-softmax, of the arrays the reference computes for it. -/
theorem layer2_eq :
    (val_main_v67 (F := Ideal) x0 x1 x2 x3 x4 x5 x6 x7 : Sage.Arr 100000 2)
      = Sage.layerLogSoftmax (n := 100000) (a := 256) (b := 2) (val_main_v45 (F := Ideal) x0 x1 x2 x3 x4) (val_main_v35 (F := Ideal) x0 x1 x2 x3 x4) (val_main_v49 (F := Ideal) x1) (val_main_v54 (F := Ideal) x5) (val_main_v59 (F := Ideal) x7) (val_main_v56 (F := Ideal) x6) := by
  funext i
  obtain ⟨r, j, rfl⟩ : ∃ (r : Fin 100000) (j : Fin 2), i = ix2 r j := ⟨i 0, i 1, eq_ix2 i⟩
  exact out_apply x0 x1 x2 x3 x4 x5 x6 x7 r j

end Cert.ReferenceIdeal.Rows

end
-- ==== Proof.Glue.lean ====
/-
  The arrays each region finds, and the kernel program's result, in the reference's terms.

  Before the first region the kernel program computes, on the host, the same neighbour sums and in-degrees as the
  reference and transposes the weights; the bias vector it reshapes to a row where the reference broadcasts it to
  a row: the same row. So the first region's output is the reference's first layer. Between the regions the
  host gathers and sums that output along the edges as the reference does, so the second region finds the
  reference's second-layer arrays, and its output — the kernel program's result — is the reference's result.
-/
import proofs.«181954_j60352880443979_2_alg».proof.Proof.KernelRun
import proofs.«181954_j60352880443979_2_alg».proof.Proof.Region0
import proofs.«181954_j60352880443979_2_alg».proof.Proof.Region1
import proofs.«181954_j60352880443979_2_alg».proof.Proof.RefRows
import Idealize.ShloMosaic.Lib.ValueLayout

set_option maxRecDepth 65536

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg) (c : Dev nD)

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

/-! ## What the first region finds -/

theorem s1_eq : V1 m ρ c main_v17 = val_main_v13 (F := Ideal) (a0 m c) (a1 m c) := by
  show after hostOps0 (W0 m ρ c) (Proc.devRef .tc main_v17) = _
  after_results_simp <;> rfl

theorem cnt_eq : V1 m ρ c main_v7 = val_main_v17 (F := Ideal) (a1 m c) := by
  show after hostOps0 (W0 m ρ c) (Proc.devRef .tc main_v7) = _
  after_results_simp <;> rfl

theorem x_eq : V1 m ρ c main_arg0 = (a0 m c) := by
  show after hostOps0 (W0 m ρ c) (Proc.devRef .tc main_arg0) = _
  after_results_simp <;> rfl

theorem wl_eq : V1 m ρ c main_v18 = val_main_v22 (F := Ideal) (a2 m c) := by
  show after hostOps0 (W0 m ρ c) (Proc.devRef .tc main_v18) = _
  after_results_simp <;> rfl

theorem wr_eq : V1 m ρ c main_v19 = val_main_v27 (F := Ideal) (a4 m c) := by
  show after hostOps0 (W0 m ρ c) (Proc.devRef .tc main_v19) = _
  after_results_simp <;> rfl

/-- The bias vector reshaped to a row is the bias vector broadcast to a row. -/
theorem b_eq : (V1 m ρ c main_v20 : Sage.Arr 1 256) = val_main_v24 (F := Ideal) (a3 m c) := by
  have e : V1 m ρ c main_v20 = shapeCast S1x256 (a3 m c) shapeCasts_S256_S1x256 := by
    show after hostOps0 (W0 m ρ c) (Proc.devRef .tc main_v20) = _
    after_results_simp <;> rfl
  rw [e]
  funext i
  obtain ⟨z, j, rfl⟩ : ∃ (z : Fin 1) (j : Fin 256), i = ix2 z j := ⟨i 0, i 1, eq_ix2 i⟩
  rw [val_main_v24_apply]
  refine (shapeCast_a_1a_apply (a3 m c) shapeCasts_S256_S1x256 z j).trans ?_
  exact congrArg (a3 m c) (funext fun a => Fin.ext (by match a with | ⟨0, _⟩ => rfl))

/-- The first region's output is the reference's first layer. -/
theorem h_eq : (dat0 (V1 m ρ) c).arrAt 6 cfg0.N = val_main_v35 (F := Ideal) (a0 m c) (a1 m c) (a2 m c) (a3 m c) (a4 m c) := by
  rw [Region0.final]
  unfold Region0.out
  rw [s1_eq, x_eq, cnt_eq, wl_eq, wr_eq, b_eq]
  exact (Cert.ReferenceIdeal.Rows.layer1_eq (a0 m c) (a1 m c) (a2 m c) (a3 m c) (a4 m c)).symm

/-! ## Between the regions -/

theorem w1_v1 : W1 m ρ c (Proc.devRef .tc main_v1) = val_main_v1 (F := Ideal) (a1 m c) := by
  show after hostOps0 (W0 m ρ c) (Proc.devRef .tc main_v1) = _
  after_results_simp <;> rfl
theorem w1_v3 : W1 m ρ c (Proc.devRef .tc main_v3) = val_main_v3 (F := Ideal) (a1 m c) := by
  show after hostOps0 (W0 m ρ c) (Proc.devRef .tc main_v3) = _
  after_results_simp <;> rfl
theorem w1_arg5 : W1 m ρ c (Proc.devRef .tc main_arg5) = (a5 m c) := by
  show after hostOps0 (W0 m ρ c) (Proc.devRef .tc main_arg5) = _
  after_results_simp <;> rfl
theorem w1_arg6 : W1 m ρ c (Proc.devRef .tc main_arg6) = (a6 m c) := by
  show after hostOps0 (W0 m ρ c) (Proc.devRef .tc main_arg6) = _
  after_results_simp <;> rfl
theorem w1_arg7 : W1 m ρ c (Proc.devRef .tc main_arg7) = (a7 m c) := by
  show after hostOps0 (W0 m ρ c) (Proc.devRef .tc main_arg7) = _
  after_results_simp <;> rfl

/-- After the first region its output array holds the reference's first layer … -/
theorem w2_v21 : W2 m ρ c (Proc.devRef .tc main_v21) = val_main_v35 (F := Ideal) (a0 m c) (a1 m c) (a2 m c) (a3 m c) (a4 m c) :=
  (W2_arr m ρ c 6).trans (h_eq m ρ c)
/-- … its in-degree input is as it was … -/
theorem w2_v7 : W2 m ρ c (Proc.devRef .tc main_v7) = val_main_v17 (F := Ideal) (a1 m c) :=
  (W2_arr m ρ c 1).trans (((dat0 (V1 m ρ) c).arrAt_in 1 rfl _).trans ((A_eq0 (V1 m ρ) c 1).trans (cnt_eq m ρ c)))
/-- … and the buffers the region does not touch are as the host left them. -/
theorem w2_v1 : W2 m ρ c (Proc.devRef .tc main_v1) = val_main_v1 (F := Ideal) (a1 m c) :=
  (W2_of_ne m ρ c main_v1 (by decide)).trans (w1_v1 m ρ c)
theorem w2_v3 : W2 m ρ c (Proc.devRef .tc main_v3) = val_main_v3 (F := Ideal) (a1 m c) :=
  (W2_of_ne m ρ c main_v3 (by decide)).trans (w1_v3 m ρ c)
theorem w2_arg5 : W2 m ρ c (Proc.devRef .tc main_arg5) = (a5 m c) :=
  (W2_of_ne m ρ c main_arg5 (by decide)).trans (w1_arg5 m ρ c)
theorem w2_arg6 : W2 m ρ c (Proc.devRef .tc main_arg6) = (a6 m c) :=
  (W2_of_ne m ρ c main_arg6 (by decide)).trans (w1_arg6 m ρ c)
theorem w2_arg7 : W2 m ρ c (Proc.devRef .tc main_arg7) = (a7 m c) :=
  (W2_of_ne m ρ c main_arg7 (by decide)).trans (w1_arg7 m ρ c)

/-! ## What the second region finds -/

theorem s2_eq : V3 m ρ c main_v31 = val_main_v45 (F := Ideal) (a0 m c) (a1 m c) (a2 m c) (a3 m c) (a4 m c) := by
  show after hostOps1 (W2 m ρ c) (Proc.devRef .tc main_v31) = _
  after_results_simp
  rw [w2_v3, w2_v21, w2_v1]
  rfl

theorem cnt2_eq : V3 m ρ c main_v7 = val_main_v49 (F := Ideal) (a1 m c) := by
  show after hostOps1 (W2 m ρ c) (Proc.devRef .tc main_v7) = _
  after_results_simp
  rw [w2_v7]
  rfl

theorem x2_eq : V3 m ρ c main_v21 = val_main_v35 (F := Ideal) (a0 m c) (a1 m c) (a2 m c) (a3 m c) (a4 m c) := by
  show after hostOps1 (W2 m ρ c) (Proc.devRef .tc main_v21) = _
  after_results_simp
  exact w2_v21 m ρ c

theorem wl2_eq : V3 m ρ c main_v32 = val_main_v54 (F := Ideal) (a5 m c) := by
  show after hostOps1 (W2 m ρ c) (Proc.devRef .tc main_v32) = _
  after_results_simp
  rw [w2_arg5]
  rfl

theorem wr2_eq : V3 m ρ c main_v33 = val_main_v59 (F := Ideal) (a7 m c) := by
  show after hostOps1 (W2 m ρ c) (Proc.devRef .tc main_v33) = _
  after_results_simp
  rw [w2_arg7]
  rfl

theorem b2_eq : (V3 m ρ c main_v34 : Sage.Arr 1 2) = val_main_v56 (F := Ideal) (a6 m c) := by
  have e : V3 m ρ c main_v34 = shapeCast S1x2 (a6 m c) shapeCasts_S2_S1x2 := by
    show after hostOps1 (W2 m ρ c) (Proc.devRef .tc main_v34) = _
    after_results_simp
    rw [w2_arg6]
    rfl
  rw [e]
  funext i
  obtain ⟨z, j, rfl⟩ : ∃ (z : Fin 1) (j : Fin 2), i = ix2 z j := ⟨i 0, i 1, eq_ix2 i⟩
  rw [val_main_v56_apply]
  refine (shapeCast_a_1a_apply (a6 m c) shapeCasts_S2_S1x2 z j).trans ?_
  exact congrArg (a6 m c) (funext fun a => Fin.ext (by match a with | ⟨0, _⟩ => rfl))

/-! ## The result -/

/-- The kernel program's result buffer ends at the reference's result, as functions of the launched arguments. -/
theorem result_eq : W4 m ρ c (Proc.devRef .tc main_v35) = val_main_v67 (F := Ideal) (a0 m c) (a1 m c) (a2 m c) (a3 m c) (a4 m c) (a5 m c) (a6 m c) (a7 m c) := by
  refine (W4_arr m ρ c 6).trans ?_
  rw [Region1.final]
  unfold Region1.out
  rw [s2_eq, x2_eq, cnt2_eq, wl2_eq, wr2_eq, b2_eq]
  exact (Cert.ReferenceIdeal.Rows.layer2_eq (a0 m c) (a1 m c) (a2 m c) (a3 m c) (a4 m c) (a5 m c) (a6 m c) (a7 m c)).symm

end Cert.KernelIdeal.Glue

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.RefResult.lean ====
/-
  The reference's result.

  The reference's run ends with its result buffer at the fold of its host operations over the launched memory.
  Unfolding the fold operation by operation gives each stage applied to the earlier ones (the operations of a called
  function read and write through typed references, whose round trips cancel); that is, stage by stage, the last
  stage function of the launched arguments.
-/
import proofs.«181954_j60352880443979_2_alg».proof.Proof.RefReadP
import proofs.«181954_j60352880443979_2_alg».proof.Proof.LibTypedRef

set_option maxRecDepth 65536

noncomputable section

namespace Cert.ReferenceIdeal.Result

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 40000000 in
/-- The result the run names is the last stage of the launched arguments. -/
theorem res_eq (m : (ℓ : Loc nD τ sig) → Buf (Elt F) ℓ) (c : Dev nD) :
    res_main_v67 m c = val_main_v67 (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold res_main_v67
  after_results_simp
  simp only [Cert.Lib.TypedRef.ofBuf_toBuf, Cert.Lib.TypedRef.toBuf_ofBuf]
  rfl

end Cert.ReferenceIdeal.Result

end
-- ==== Proof.lean ====
/-
  A two-layer graph network: the kernel program against its reference, on the extended reals.

  Both programs sum, for every node, the feature rows of its in-neighbours and count them (the same host operations
  on the same edge list), then apply a layer: the mean of the neighbours times one weight matrix, the node's own row
  times another, a bias, the division by the row's Euclidean length (clamped below), and the positive part; then the
  same again on the result, ending in the logarithm of the softmax. The kernel program does each layer's dense part
  in a kernel over blocks of 4000 rows; the reference does it with whole-array operations. Row `p` of block `t` is
  row `4000·t + p`, every operation of a layer acts on one row, and at the extended reals the kernel's operations and
  the host's are the same functions (a change of float format is the identity, a matrix product is the plain sum) —
  so each block is the reference's layer on those rows, the blocks cover the arrays, and the two results are equal.
  The one algebraic law used is that addition is commutative and associative (the reference adds the bias before the
  second product); nothing needs the inputs to be finite.

  The frames of the two kernel programs and the kernel's run are over the generated segments; the reference's frame and
  result are its run as a fold of its host operations.
-/
import proofs.«181954_j60352880443979_2_alg».proof.Defs
import proofs.«181954_j60352880443979_2_alg».proof.Proof.Gen.Kernel
import proofs.«181954_j60352880443979_2_alg».proof.Proof.Gen.Kernel.Frame
import proofs.«181954_j60352880443979_2_alg».proof.Proof.Gen.KernelIdeal
import proofs.«181954_j60352880443979_2_alg».proof.Proof.Gen.KernelIdeal.Frame
import proofs.«181954_j60352880443979_2_alg».proof.Proof.Gen.ReferenceIdeal
import proofs.«181954_j60352880443979_2_alg».proof.Proof.Gen.Pre_finite_inputs
import proofs.«181954_j60352880443979_2_alg».proof.Proof.Glue
import proofs.«181954_j60352880443979_2_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the result at the reference's last stage of the launched arguments. -/
theorem algebraic : Cert.algebraic_KernelIdeal_ReferenceIdeal := by
  intro m ρ m' ρ' _ hagree
  refine ⟨fun c => Cert.ReferenceIdeal.ReadP.val_main_v67 (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Glue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Result.res_eq m' c]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
